-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S2000000 : Shape := ⟨1, ![2000000]⟩
abbrev S200000x64 : Shape := ⟨2, ![200000, 64]⟩
abbrev S2x64 : Shape := ⟨2, ![2, 64]⟩
abbrev S128x1 : Shape := ⟨2, ![128, 1]⟩
abbrev S1 : Shape := ⟨1, ![1]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x2000000 32) (main_arg1 : IVec S2000000 32) (main_arg2 : FVec F S200000x64 .f32) (main_arg3 : FVec F S2x64 .f32) (main_arg4 : FVec F S128x1 .f32) (main_arg5 : FVec F S1 .f32) (main_arg6 : FVec F S64x64 .f32) (main_arg7 : FVec F S64 .f32) : IVec S_ 1 :=
  let main_v0 : FVec F S200000x64 .f32 := Host.absf main_arg2
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S2x64 .f32 := Host.absf main_arg3
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S128x1 .f32 := Host.absf main_arg4
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_v13 main_v16
-- ==== Kernel.lean ====
abbrev S2x2000000 : Shape := ⟨2, ![2, 2000000]⟩
abbrev S2000000 : Shape := ⟨1, ![2000000]⟩
abbrev S200000x64 : Shape := ⟨2, ![200000, 64]⟩
abbrev S2x64 : Shape := ⟨2, ![2, 64]⟩
abbrev S128x1 : Shape := ⟨2, ![128, 1]⟩
abbrev S1 : Shape := ⟨1, ![1]⟩
abbrev S64x64 : Shape := ⟨2, ![64, 64]⟩
abbrev S64 : Shape := ⟨1, ![64]⟩
abbrev S64x1 : Shape := ⟨2, ![64, 1]⟩
abbrev S200000x1 : Shape := ⟨2, ![200000, 1]⟩
abbrev S2x1 : Shape := ⟨2, ![2, 1]⟩
abbrev S1x2000000 : Shape := ⟨2, ![1, 2000000]⟩
abbrev S_ : Shape := ⟨0, ![]⟩
abbrev S2000000x1 : Shape := ⟨2, ![2000000, 1]⟩
abbrev S1x1 : Shape := ⟨2, ![1, 1]⟩
abbrev S2000000x64 : Shape := ⟨2, ![2000000, 64]⟩
abbrev S8000x64 : Shape := ⟨2, ![8000, 64]⟩
abbrev S8000x1 : Shape := ⟨2, ![8000, 1]⟩
abbrev S1x64 : Shape := ⟨2, ![1, 64]⟩

abbrev nBuf : Space → Nat
  | .hbm => 56
  | .vmem => 12
  | .smem => 0
  | _ => 0

abbrev bufTy : (tb : Table) → Fin (tcTables nBuf tb) → BufTy
  | .hbm, ⟨0, _⟩ => ⟨S2x2000000, .i32⟩
  | .hbm, ⟨1, _⟩ => ⟨S2000000, .i32⟩
  | .hbm, ⟨2, _⟩ => ⟨S200000x64, .f32⟩
  | .hbm, ⟨3, _⟩ => ⟨S2x64, .f32⟩
  | .hbm, ⟨4, _⟩ => ⟨S128x1, .f32⟩
  | .hbm, ⟨5, _⟩ => ⟨S1, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S200000x1, .f32⟩
  | .hbm, ⟨11, _⟩ => ⟨S2x1, .f32⟩
  | .hbm, ⟨12, _⟩ => ⟨S1x2000000, .i32⟩
  | .hbm, ⟨13, _⟩ => ⟨S2000000, .i32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x1, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000x1, .f32⟩
  | .hbm, ⟨32, _⟩ => ⟨S2000000x1, .f32⟩
  | .hbm, ⟨33, _⟩ => ⟨S1x1, .f32⟩
  | .hbm, ⟨34, _⟩ => ⟨S2000000x1, .f32⟩
  | .hbm, ⟨35, _⟩ => ⟨S2000000x1, .f32⟩
  | .hbm, ⟨36, _⟩ => ⟨S1x2000000, .i32⟩
  | .hbm, ⟨37, _⟩ => ⟨S2000000, .i32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000x64, .f32⟩
  | .hbm, ⟨47, _⟩ => ⟨S2000000x64, .f32⟩
  | .hbm, ⟨48, _⟩ => ⟨S1x2000000, .i32⟩
  | .hbm, ⟨49, _⟩ => ⟨S2000000, .i32⟩
  | .hbm, ⟨50, _⟩ => ⟨S_, .f32⟩
  | .hbm, ⟨51, _⟩ => ⟨S200000x64, .f32⟩
  | .hbm, ⟨52, _⟩ => ⟨S2000000x1, .i32⟩
  | .hbm, ⟨53, _⟩ => ⟨S200000x64, .f32⟩
  | .hbm, ⟨54, _⟩ => ⟨S64x64, .f32⟩
  | .hbm, ⟨55, _⟩ => ⟨S200000x64, .f32⟩
  | .local _ .vmem, ⟨0, _⟩ => ⟨S8000x64, .f32⟩
  | .local _ .vmem, ⟨1, _⟩ => ⟨S8000x64, .f32⟩
  | .local _ .vmem, ⟨2, _⟩ => ⟨S8000x1, .f32⟩
  | .local _ .vmem, ⟨3, _⟩ => ⟨S8000x1, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S8000x64, .f32⟩
  | .local _ .vmem, ⟨8, _⟩ => ⟨S64x64, .f32⟩
  | .local _ .vmem, ⟨9, _⟩ => ⟨S64, .f32⟩
  | .local _ .vmem, ⟨10, _⟩ => ⟨S8000x64, .f32⟩
  | .local _ .vmem, ⟨11, _⟩ => ⟨S8000x64, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S128x1_S64x1_0_0 : S128x1.Slices ![0, 0] S64x1
  slices_S128x1_S64x1_64_0 : S128x1.Slices ![64, 0] S64x1
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  slices_S2x2000000_S1x2000000_1_0 : S2x2000000.Slices ![1, 0] S1x2000000
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S200000x64 : S_.BroadcastsInDim S200000x64 (![] : Fin 0 → Fin S200000x64.rank)
  transposes_S64x64_S64x64_1_0 : S64x64.Transposes [1, 0] S64x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  dot_S200000x64_S64x1_S200000x1_1_0_0_1_n_n_wf : DotDims.WF S200000x64 S64x1 S200000x1 [1] [0] [0] [1] [] []
  dot_S2x64_S64x1_S2x1_1_0_0_1_n_n_wf : DotDims.WF S2x64 S64x1 S2x1 [1] [0] [0] [1] [] []
  gather_S200000x1_S2000000x1_S2000000x1_1_0_n_n_0_1_11_wf : GatherDims.WF S200000x1 S2000000x1 S2000000x1 [1] [0] [] [0] [] 1 ![1, 1]
  gather_S2x1_S2000000x1_S2000000x1_1_0_n_n_0_1_11_wf : GatherDims.WF S2x1 S2000000x1 S2000000x1 [1] [0] [] [0] [] 1 ![1, 1]
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S2000000x64.size a
  hwx0_0 : ∀ i : grid0.Coords, EltTy.bits .f32 = 32 ∨ (Rect.block (s := S2000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S2000000x1.size a
  hwx0_1 : ∀ i : grid0.Coords, EltTy.bits .f32 = 32 ∨ (Rect.block (s := S2000000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S2000000x64.size a
  hwx0_2 : ∀ i : grid0.Coords, EltTy.bits .f32 = 32 ∨ (Rect.block (s := S2000000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S200000x64.size a
  hwx1_0 : ∀ i : grid1.Coords, EltTy.bits .f32 = 32 ∨ (Rect.block (s := S200000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S200000x64.size a
  hwx1_3 : ∀ i : grid1.Coords, EltTy.bits .f32 = 32 ∨ (Rect.block (s := S200000x64) S8000x64.size (cc1_transform_3 i) (hinb1_3 i)).WholeWords (EltTy.packing .f32)

variable [Facts₀]

def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf
def dot_S2x64_S64x1_S2x1_1_0_0_1_n_n : DotDims S2x64 S64x1 S2x1 where
  lhsContracting := [1]
  rhsContracting := [0]
  lhsNonContracting := [0]
  rhsNonContracting := [1]
  lhsBatch := []
  rhsBatch := []
  wf := dot_S2x64_S64x1_S2x1_1_0_0_1_n_n_wf
def gather_S200000x1_S2000000x1_S2000000x1_1_0_n_n_0_1_11 : GatherDims S200000x1 S2000000x1 S2000000x1 where
  offsetDims := [1]
  collapsedSliceDims := [0]
  operandBatchingDims := []
  startIndicesBatchingDims := []
  startIndexMap := [0]
  indexVectorDim := 1
  sliceSizes := ![1, 1]
  wf := gather_S200000x1_S2000000x1_S2000000x1_1_0_n_n_0_1_11_wf
def gather_S2x1_S2000000x1_S2000000x1_1_0_n_n_0_1_11 : GatherDims S2x1 S2000000x1 S2000000x1 where
  offsetDims := [1]
  collapsedSliceDims := [0]
  operandBatchingDims := []
  startIndicesBatchingDims := []
  startIndexMap := [0]
  indexVectorDim := 1
  sliceSizes := ![1, 1]
  wf := gather_S2x1_S2000000x1_S2000000x1_1_0_n_n_0_1_11_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_v32) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2000000 : Shape := ⟨2, ![2, 2000000]⟩
abbrev S2000000 : Shape := ⟨1, ![2000000]⟩
abbrev S200000x64 : Shape := ⟨2, ![200000, 64]⟩
abbrev S2x64 : Shape := ⟨2, ![2, 64]⟩
abbrev S128x1 : Shape := ⟨2, ![128, 1]⟩
abbrev S1 : Shape := ⟨1, ![1]⟩
abbrev S64x64 : Shape := ⟨2, ![64, 64]⟩
abbrev S64 : Shape := ⟨1, ![64]⟩
abbrev S1x2000000 : Shape := ⟨2, ![1, 2000000]⟩
abbrev S_ : Shape := ⟨0, ![]⟩
abbrev S2000000x1 : Shape := ⟨2, ![2000000, 1]⟩
abbrev S2000000x64 : Shape := ⟨2, ![2000000, 64]⟩
abbrev S2000000x128 : Shape := ⟨2, ![2000000, 128]⟩
abbrev S1x1 : Shape := ⟨2, ![1, 1]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S2x2000000, .i32⟩
  | .hbm, ⟨1, _⟩ => ⟨S2000000, .i32⟩
  | .hbm, ⟨2, _⟩ => ⟨S200000x64, .f32⟩
  | .hbm, ⟨3, _⟩ => ⟨S2x64, .f32⟩
  | .hbm, ⟨4, _⟩ => ⟨S128x1, .f32⟩
  | .hbm, ⟨5, _⟩ => ⟨S1, .f32⟩
  | .hbm, ⟨6, _⟩ => ⟨S64x64, .f32⟩
  | .hbm, ⟨7, _⟩ => ⟨S64, .f32⟩
  | .hbm, ⟨8, _⟩ => ⟨S1x2000000, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S2000000x1, .i32⟩
  | .hbm, ⟨18, _⟩ => ⟨S2000000x64, .f32⟩
  | .hbm, ⟨19, _⟩ => ⟨S1x2000000, .i32⟩
  | .hbm, ⟨20, _⟩ => ⟨S2000000, .i32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x64, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x64, .f32⟩
  | .hbm, ⟨39, _⟩ => ⟨S2000000x128, .f32⟩
  | .hbm, ⟨40, _⟩ => ⟨S2000000x1, .f32⟩
  | .hbm, ⟨41, _⟩ => ⟨S1x1, .f32⟩
  | .hbm, ⟨42, _⟩ => ⟨S2000000x1, .f32⟩
  | .hbm, ⟨43, _⟩ => ⟨S2000000x1, .f32⟩
  | .hbm, ⟨44, _⟩ => ⟨S2000000x1, .f32⟩
  | .hbm, ⟨45, _⟩ => ⟨S2000000x1, .f32⟩
  | .hbm, ⟨46, _⟩ => ⟨S_, .f32⟩
  | .hbm, ⟨47, _⟩ => ⟨S2000000x1, .f32⟩
  | .hbm, ⟨48, _⟩ => ⟨S2000000x1, .f32⟩
  | .hbm, ⟨49, _⟩ => ⟨S_, .f32⟩
  | .hbm, ⟨50, _⟩ => ⟨S2000000x1, .f32⟩
  | .hbm, ⟨51, _⟩ => ⟨S2000000x1, .f32⟩
  | .hbm, ⟨52, _⟩ => ⟨S2000000x64, .f32⟩
  | .hbm, ⟨53, _⟩ => ⟨S2000000x64, .f32⟩
  | .hbm, ⟨54, _⟩ => ⟨S1x2000000, .i32⟩
  | .hbm, ⟨55, _⟩ => ⟨S2000000, .i32⟩
  | .hbm, ⟨56, _⟩ => ⟨S_, .f32⟩
  | .hbm, ⟨57, _⟩ => ⟨S200000x64, .f32⟩
  | .hbm, ⟨58, _⟩ => ⟨S2000000x1, .i32⟩
  | .hbm, ⟨59, _⟩ => ⟨S200000x64, .f32⟩
  | .hbm, ⟨60, _⟩ => ⟨S64x64, .f32⟩
  | .hbm, ⟨61, _⟩ => ⟨S200000x64, .f32⟩
  | .hbm, ⟨62, _⟩ => ⟨S1x64, .f32⟩
  | .hbm, ⟨63, _⟩ => ⟨S200000x64, .f32⟩
  | .hbm, ⟨64, _⟩ => ⟨S200000x64, .f32⟩
  | .hbm, ⟨65, _⟩ => ⟨S200000x64, .f32⟩
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  concatenates_S2000000x64_S2000000x64_S2000000x128_d1 : Shape.Concatenates [S2000000x64, S2000000x64] S2000000x128 1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  bcast_S2000000x1_S2000000x64_0_1 : S2000000x1.BroadcastsInDim S2000000x64 (![0, 1] : Fin 2 → Fin S2000000x64.rank)
  bcast_S_S200000x64 : S_.BroadcastsInDim S200000x64 (![] : Fin 0 → Fin S200000x64.rank)
  transposes_S64x64_S64x64_1_0 : S64x64.Transposes [1, 0] S64x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S2000000x1_S2000000x64_1_0_n_n_0_1_164_wf : GatherDims.WF S200000x64 S2000000x1 S2000000x64 [1] [0] [] [0] [] 1 ![1, 64]
  gather_S2x64_S2000000x1_S2000000x64_1_0_n_n_0_1_164_wf : GatherDims.WF S2x64 S2000000x1 S2000000x64 [1] [0] [] [0] [] 1 ![1, 64]
  dot_S2000000x128_S128x1_S2000000x1_1_0_0_1_n_n_wf : DotDims.WF S2000000x128 S128x1 S2000000x1 [1] [0] [0] [1] [] []
  scatter_S200000x64_S2000000x1_S2000000x64_1_0_0_1_wf : ScatterDims.WF S200000x64 S2000000x1 S2000000x64 [1] [0] [0] 1
  dot_S200000x64_S64x64_S200000x64_1_0_0_1_n_n_wf : DotDims.WF S200000x64 S64x64 S200000x64 [1] [0] [0] [1] [] []

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def gather_S2x64_S2000000x1_S2000000x64_1_0_n_n_0_1_164 : GatherDims S2x64 S2000000x1 S2000000x64 where
  offsetDims := [1]
  collapsedSliceDims := [0]
  operandBatchingDims := []
  startIndicesBatchingDims := []
  startIndexMap := [0]
  indexVectorDim := 1
  sliceSizes := ![1, 64]
  wf := gather_S2x64_S2000000x1_S2000000x64_1_0_n_n_0_1_164_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.KernelRun.lean ====
/-
  The kernel program's run with its result buffer named.

  @main is four segments: the host operations before the first kernel call, that call, the host operations between the two
  calls, the second call.  The buffers' contents at each boundary are a fold from the launch memory: after a host stretch
  the operations' results, after a kernel call its arrays at what the write-backs of its grid points leave.  Every weakly
  fair execution terminates without a fault; in the final state the result buffer holds the last boundary's contents of
  the second call's output array, and the eight arguments hold what they were launched with.
-/
import proofs.«127353_j7816840479342_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«127353_j7816840479342_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«127353_j7816840479342_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibGatedTanh.lean ====
/-
  Two layers on the extended reals, at any extents: rows weighted by a sigmoid gate, and a dense layer under tanh.

  `gate z T` multiplies row `e` of `T` by `σ (z e)`, where `z` is a column of logits and `σ x = 1 / (1 + e^(-x))` with the
  conventions `σ (-∞) = 0`, `σ (+∞) = 1`.  The vector unit spells it with its one sigmoid operation, the column broadcast
  along the rows and a product; the host spells the sigmoid out as negate, exponential, one plus, one over — the same
  function of every extended real, since the sigmoid operation is defined as that expression.
  `tanhDense A W b` is `tanh (A W + b)` with the one-row bias `b` added to every row.  The vector unit computes the product
  with its matrix unit into a zero accumulator after a change of float format of both operands (the identity on the
  extended reals) and adds the bias row broadcast along the rows; the host computes a dot product and adds the bias
  vector broadcast to a row and then to every row.  Row `p` of either layer depends on row `p` of the left operand only.
-/
import proofs.«127353_j7816840479342_2_alg».proof.Proof.LibDense
import proofs.«127353_j7816840479342_2_alg».proof.Proof.LibBiasRow
import proofs.«127353_j7816840479342_2_alg».proof.Proof.LibRowBlocks
import proofs.«127353_j7816840479342_2_alg».proof.Proof.LibHostLayout
import Idealize.ShloMosaic.PureOps.IdealRules

noncomputable section

open scoped BigOperators

namespace Cert.GatedTanh

open Idealize.ShloMosaic Idealize.ShloMosaic.ValueIdx Cert.Dense Cert.BiasRow

/-! ## The sigmoid gate -/

/-- Row `e` of `T` multiplied by the sigmoid of the logit `z e`. -/
def gate {E D : ℕ} (z : Mat E 1) (T : Mat E D) : Mat E D :=
  fun i => Ideal.logistic (z (ix2 (c0 i) (0 : Fin 1))) * T i

theorem gate_apply {E D : ℕ} (z : Mat E 1) (T : Mat E D) (e : Fin E) (q : Fin D) :
    gate z T (ix2 e q) = Ideal.logistic (z (ix2 e (0 : Fin 1))) * T (ix2 e q) := rfl

/-- An entry of the gated array depends on the logit of its row and on the entry of `T` there. -/
theorem gate_at {E E' D : ℕ} (z : Mat E 1) (T : Mat E D) (z' : Mat E' 1) (T' : Mat E' D) (e : Fin E) (e' : Fin E')
    (q : Fin D) (hz : z' (ix2 e' (0 : Fin 1)) = z (ix2 e (0 : Fin 1))) (hT : T' (ix2 e' q) = T (ix2 e q)) :
    gate z' T' (ix2 e' q) = gate z T (ix2 e q) := by
  rw [gate_apply, gate_apply, hz, hT]

/-- The same at any two indices: the gated entry at `j` of one pair of arrays is the gated entry at `i` of another when
    the logits of the two rows agree and the two entries of `T` agree. -/
theorem gate_idx {E E' D D' : ℕ} (z : Mat E 1) (T : Mat E D) (z' : Mat E' 1) (T' : Mat E' D')
    (j : (⟨2, ![E', D']⟩ : Shape).Idx) (i : (⟨2, ![E, D]⟩ : Shape).Idx)
    (hz : z' (ix2 (c0 j) (0 : Fin 1)) = z (ix2 (c0 i) (0 : Fin 1))) (hT : T' j = T i) :
    gate z' T' j = gate z T i := by
  unfold gate; rw [hz, hT]

/-- The vector unit's form: the sigmoid operation on the column, the column broadcast along the rows, a product. -/
theorem vecGate {E D : ℕ} (z : FVec Ideal ⟨2, ![E, 1]⟩ .f32) (T : FVec Ideal ⟨2, ![E, D]⟩ .f32)
    (h : (⟨2, ![E, 1]⟩ : Shape).Broadcasts ⟨2, ![E, D]⟩) :
    mulf (broadcastTo ⟨2, ![E, D]⟩ (logistic z) h) T = gate z T := by
  funext i
  obtain ⟨e, q, rfl⟩ : ∃ (e : Fin E) (q : Fin D), i = ix2 e q := ⟨i 0, i 1, eq_ix2 i⟩
  show broadcastTo ⟨2, ![E, D]⟩ (logistic z) h (ix2 e q) * T (ix2 e q) = _
  rw [Cert.RowBlocks.broadcastTo_col_apply]
  rfl

/-- The host's form: one over one plus the exponential of the negated logit, the ones broadcast scalars, the column
    broadcast along the rows, a product.  `one` is any bit pattern that denotes the real number one. -/
theorem hostGate {E D : ℕ} (one : BitVec 32) (hone : Ideal.ofBits .f32 one = 1)
    (z : FVec Ideal ⟨2, ![E, 1]⟩ .f32) (T : FVec Ideal ⟨2, ![E, D]⟩ .f32)
    (h0 : (⟨0, ![]⟩ : Shape).BroadcastsInDim ⟨2, ![E, 1]⟩ ![])
    (h : (⟨2, ![E, 1]⟩ : Shape).BroadcastsInDim ⟨2, ![E, D]⟩ ![0, 1]) :
    mulf (broadcastInDim ⟨2, ![E, D]⟩ ![0, 1] h
        (Host.divf (broadcastInDim ⟨2, ![E, 1]⟩ ![] h0 (constant (F := Ideal) ⟨0, ![]⟩ .f32 one))
          (addf (broadcastInDim ⟨2, ![E, 1]⟩ ![] h0 (constant (F := Ideal) ⟨0, ![]⟩ .f32 one)) (Host.exp (Host.negf z))))) T
      = gate z T := by
  funext i
  obtain ⟨e, q, rfl⟩ : ∃ (e : Fin E) (q : Fin D), i = ix2 e q := ⟨i 0, i 1, eq_ix2 i⟩
  show broadcastInDim (s := ⟨2, ![E, 1]⟩) ⟨2, ![E, D]⟩ ![0, 1] h _ (ix2 e q) * T (ix2 e q) = _
  rw [Cert.HostLayout.bcast_col_mat]
  show Ideal.div (broadcastInDim ⟨2, ![E, 1]⟩ ![] h0 (constant (F := Ideal) ⟨0, ![]⟩ .f32 one) (ix2 e (0 : Fin 1)))
      (broadcastInDim ⟨2, ![E, 1]⟩ ![] h0 (constant (F := Ideal) ⟨0, ![]⟩ .f32 one) (ix2 e (0 : Fin 1))
        + Ideal.exp (-(z (ix2 e (0 : Fin 1))))) * T (ix2 e q) = _
  rw [Cert.HostLayout.bcast_scalar_mat]
  show Ideal.div (Ideal.ofBits .f32 one) (Ideal.ofBits .f32 one + Ideal.exp (-(z (ix2 e (0 : Fin 1))))) * T (ix2 e q) = _
  rw [hone]
  rfl

/-! ## The dense layer under tanh -/

/-- `tanh (A W + b)`, the one-row bias `b` added to every row. -/
def tanhDense {M K N : ℕ} (A : Mat M K) (W : Mat K N) (b : Mat 1 N) : Mat M N :=
  fun i => Ideal.tanh (addRow (mm A W) b i)

theorem tanhDense_apply {M K N : ℕ} (A : Mat M K) (W : Mat K N) (b : Mat 1 N) (p : Fin M) (q : Fin N) :
    tanhDense A W b (ix2 p q) = Ideal.tanh ((∑ k : Fin K, A (ix2 p k) * W (ix2 k q)) + b (ix2 (0 : Fin 1) q)) := rfl

/-- Row `p'` of the layer over `A'` is row `p` of the layer over `A` when the two rows of the left operands agree. -/
theorem tanhDense_rows {M M' K N : ℕ} (A : Mat M K) (A' : Mat M' K) (W : Mat K N) (b : Mat 1 N)
    (p : Fin M) (p' : Fin M') (hA : ∀ k, A' (ix2 p' k) = A (ix2 p k)) (q : Fin N) :
    tanhDense A' W b (ix2 p' q) = tanhDense A W b (ix2 p q) := by
  simp only [tanhDense_apply, hA]

/-- The same at any two indices of the same column: the entry at `j` of the layer over `A'` is the entry at `i` of the layer
    over `A` when row `j` of `A'` is row `i` of `A`. -/
theorem tanhDense_idx {M M' K N : ℕ} (A : Mat M K) (A' : Mat M' K) (W : Mat K N) (b : Mat 1 N)
    (j : (⟨2, ![M', N]⟩ : Shape).Idx) (i : (⟨2, ![M, N]⟩ : Shape).Idx)
    (hA : ∀ k : Fin K, A' (ix2 (c0 j) k) = A (ix2 (c0 i) k)) (hq : c1 j = c1 i) :
    tanhDense A' W b j = tanhDense A W b i := by
  unfold tanhDense addRow mm
  simp only [hA, hq]

/-- The vector unit's form. -/
theorem vecTanhDense {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : FVec Ideal ⟨2, ![M, K]⟩ .f32) (W : FVec Ideal ⟨2, ![K, N]⟩ .f32)
    (b : FVec Ideal ⟨1, ![N]⟩ .f32) (hbits : FTy.bf16.bits < FTy.f32.bits)
    (hc : (⟨1, ![N]⟩ : Shape).ShapeCasts ⟨2, ![1, N]⟩) (hb : (⟨2, ![1, N]⟩ : Shape).Broadcasts ⟨2, ![M, N]⟩) :
    tanh (addf (matmul (F := Ideal) D prec (truncf .bf16 A hbits) (truncf .bf16 W hbits)
        (constant ⟨2, ![M, N]⟩ .f32 0x00000000#32)) (broadcastTo ⟨2, ![M, N]⟩ (shapeCast ⟨2, ![1, N]⟩ b hc) hb))
      = tanhDense A W (row b) := by
  rw [matmul_zero_eq_mm D h1 h2 h3 h4 h5 h6, vecAddRow, shapeCast_row]
  rfl

/-- The host's form. -/
theorem hostTanhDense {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : FVec Ideal ⟨2, ![M, K]⟩ .f32) (W : FVec Ideal ⟨2, ![K, N]⟩ .f32)
    (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    Host.tanh (addf (Host.dotGeneral (F := Ideal) D prec A W)
        (broadcastInDim ⟨2, ![M, N]⟩ ![0, 1] hb2 (broadcastInDim ⟨2, ![1, N]⟩ ![1] hb1 b)))
      = tanhDense A W (row b) := by
  rw [hostDot_eq_mm D h1 h2 h3 h4 h5 h6, hostAddRow]
  rfl

end Cert.GatedTanh

end
-- ==== Proof.AttnMessages.lean ====
/-
  The first kernel call: the attention-weighted messages, as one function of the whole arrays.

  The grid has 250 points; point `t` reads rows `8000 t … 8000 t + 7999` of the tails `[2000000, 64]` and of the logit column
  `[2000000, 1]`, multiplies each of its rows by the sigmoid of the row's logit, and writes the rows back to the same
  place of the output.  A row's message depends on that row only, so what point `t` writes is block `t` of
  `gate logit tail` over the whole arrays, and the 250 blocks tile the output: after the call the output array is
  `gate logit tail`, whatever the entry contents of the two inputs are.
-/
import proofs.«127353_j7816840479342_2_alg».proof.Proof.Gen.KernelIdeal.Frame
import proofs.«127353_j7816840479342_2_alg».proof.Proof.LibGatedTanh
import Idealize.ShloMosaic.Lib.Pipeline.Value

set_option maxRecDepth 16384

noncomputable section

namespace Cert.KernelIdeal.Messages

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.GatedTanh

variable (V : (c : Dev nD) → (b : Ref sig .tc) → Buf (Elt Ideal) ((c : Thread nD τ).loc b))

theorem zero_off : (![0, 0] : Fin 2 → Nat) = fun _ => 0 := funext fun a => by fin_cases a <;> rfl

/-- The body's stored value is the gate of its two loaded blocks. -/
theorem payload_eq (x0 : Vec Ideal S8000x64 .f32) (x1 : Vec Ideal S8000x1 .f32) :
    k0_pay1 x0 x1 = gate (E := 8000) (D := 64) x1 x0 := by
  unfold k0_pay1
  rw [shapeCast_self, shapeCast_self]
  exact vecGate (E := 8000) (D := 64) x1 x0 _

/-- The three windows move together: at point `t` each is at block row `t`, block column `0`. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the gated messages over the whole arrays. -/
theorem flushed_eq (c : Dev nD) (t : Fin cfg0.N) :
    (dat0 V c).flushed 2 t
      = ((cfg0.win 2).blk t).view.read (Elt Ideal) (gate (E := 2000000) (D := 64) (V c main_v23) (V c main_v32)) := by
  show (cfg0.win 2).cut (grid0.coords t) ((dat0 V c).after 2 t) = _
  rw [after0_2]
  unfold out0_2
  rw [View.canon_unit_zero zero_off]
  simp only [View.ld_unit_zero (S := S8000x64) zero_off, View.ld_unit_zero (S := S8000x1) zero_off]
  rw [payload_eq]
  obtain ⟨e0, e1, e2, e3, e4, e5⟩ := block_index t
  funext j
  refine gate_idx (E := 2000000) (D := 64) (E' := 8000) (D' := 64) (V c main_v23) (V c main_v32) _ _ j _ ?_ ?_
  · show V c main_v23 (((cfg0.win 1).blk t).view.emb (ix2 (c0 j) (0 : Fin 1))) = V c main_v23 _
    refine congrArg (V c main_v23) (funext fun a => Fin.ext ?_)
    match a with
    | ⟨0, _⟩ =>
      show win0_1.index t (0 : Fin 2) * 8000 + 1 * (j 0).val = win0_2.index t (0 : Fin 2) * 8000 + 1 * (j 0).val
      omega
    | ⟨1, _⟩ =>
      show win0_1.index t (1 : Fin 2) * 1 + 1 * 0 = 0
      omega
  · show V c main_v32 (((cfg0.win 0).blk t).view.emb j) = V c main_v32 (((cfg0.win 2).blk t).view.emb j)
    refine congrArg (V c main_v32) (funext fun a => Fin.ext ?_)
    match a with
    | ⟨0, _⟩ =>
      show win0_0.index t (0 : Fin 2) * 8000 + 1 * (j 0).val = win0_2.index t (0 : Fin 2) * 8000 + 1 * (j 0).val
      omega
    | ⟨1, _⟩ =>
      show win0_0.index t (1 : Fin 2) * 64 + 1 * (j 1).val = win0_2.index t (1 : Fin 2) * 64 + 1 * (j 1).val
      omega

/-- An index of the output array is in point `t`'s block iff each coordinate is in the block's range on its axis. -/
theorem mem_block (t : Fin cfg0.N) (i : S2000000x64.Idx) :
    i ∈ ((cfg0.win 2).blk t).view.set
      ↔ ∀ a : Fin 2, win0_2.index t a * S8000x64.size a ≤ (i a).val ∧ (i a).val < win0_2.index t a * S8000x64.size a + S8000x64.size a := by
  show i ∈ ((View.whole main_v33).slice (win0_2.rect t)).set ↔ _
  rw [View.set_slice_whole, Rect.mem_set_unit]
  exact Iff.rfl

/-- Every row of the output is in the block of the point `row / 8000`. -/
theorem covered (i : S2000000x64.Idx) :
    ∃ t : Fin cfg0.N, (cfg0.win 2).flush t = true ∧ i ∈ ((cfg0.win 2).blk t).view.set := by
  have hi0 : (i 0).val < 2000000 := (i 0).isLt
  have hi1 : (i 1).val < 64 := (i 1).isLt
  have hN : cfg0.N = 250 := N_0
  have ht : (i 0).val / 8000 < cfg0.N := by rw [hN]; omega
  obtain ⟨e0, e1, e2, e3, e4, e5⟩ := block_index ⟨(i 0).val / 8000, ht⟩
  refine ⟨⟨(i 0).val / 8000, ht⟩, flush0_2 _, ?_⟩
  rw [mem_block]
  intro a
  match a with
  | ⟨0, _⟩ =>
    show win0_2.index ⟨(i 0).val / 8000, ht⟩ (0 : Fin 2) * 8000 ≤ (i 0).val
      ∧ (i 0).val < win0_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win0_2.index ⟨(i 0).val / 8000, ht⟩ (1 : Fin 2) * 64 ≤ (i 1).val
      ∧ (i 1).val < win0_2.index ⟨(i 0).val / 8000, ht⟩ (1 : Fin 2) * 64 + 64
    rw [e5]
    omega

/-- After the call the output array holds the gated messages of the two input arrays as the call found them. -/
theorem messages (c : Dev nD) :
    (dat0 V c).arrAt 2 cfg0.N = gate (E := 2000000) (D := 64) (V c main_v23) (V c main_v32) :=
  (dat0 V c).arrAt_eq_of_cover 2 _ (fun t _ => flushed_eq V c t) covered

end Cert.KernelIdeal.Messages

end
-- ==== Proof.FinalTransform.lean ====
/-
  The second kernel call: the dense layer under tanh, as one function of the whole arrays.

  The grid has 25 points; point `t` reads rows `8000 t … 8000 t + 7999` of the aggregated messages `A : [200000, 64]`, the
  whole weight matrix `W : [64, 64]` and the whole bias `b : [64]`, and writes `tanh (A_t W + b)` to the same rows of the
  output.  Row `p` of `tanh (A W + b)` depends on row `p` of `A` only, so what point `t` writes is block `t` of the layer over
  the whole arrays, and the 25 blocks tile the output: after the call the output array is `tanhDense A W (row b)`.
-/
import proofs.«127353_j7816840479342_2_alg».proof.Proof.Gen.KernelIdeal.Frame
import proofs.«127353_j7816840479342_2_alg».proof.Proof.LibGatedTanh
import Idealize.ShloMosaic.Lib.Pipeline.Value

set_option maxRecDepth 16384

noncomputable section

namespace Cert.KernelIdeal.Transform

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.GatedTanh

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The body's stored value is the layer of its three loaded blocks. -/
theorem payload_eq (x0 : Vec Ideal S8000x64 .f32) (x1 : Vec Ideal S64x64 .f32) (x2 : Vec Ideal S64 .f32) :
    k1_pay1 x0 x1 x2 = tanhDense (M := 8000) (K := 64) (N := 64) x0 x1 (row x2) := by
  unfold k1_pay1
  rw [shapeCast_self, shapeCast_self]
  exact vecTanhDense (M := 8000) (K := 64) (N := 64) dot_S8000x64_S64x64_S8000x64_1_0_0_1_n_n rfl rfl rfl rfl rfl rfl
    none x0 x1 x2 _ _ _

/-- The rows' windows (input 0, the output) are at block row `t`; the weight matrix and the bias are whole. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the layer over the whole arrays. -/
theorem flushed_eq (c : Dev nD) (t : Fin cfg1.N) :
    (dat1 V c).flushed 3 t
      = ((cfg1.win 3).blk t).view.read (Elt Ideal)
          (tanhDense (M := 200000) (K := 64) (N := 64) (V c main_v38) (V c main_v39) (row (V c main_arg7))) := by
  show (cfg1.win 3).cut (grid1.coords t) ((dat1 V c).after 3 t) = _
  rw [after1_3]
  unfold out1_3
  rw [View.canon_unit_zero zero_off2]
  simp only [View.ld_unit_zero (S := S8000x64) zero_off2, View.ld_unit_zero (S := S64x64) zero_off2,
    View.ld_unit_zero (S := S64) zero_off1]
  rw [payload_eq]
  obtain ⟨e0, e1, e2, e3, e4, e5, e6⟩ := block_index t
  have hW : iblk1 V c 1 t = V c main_v39 := funext fun y => by
    show V c main_v39 (((cfg1.win 1).blk t).view.emb y) = V c main_v39 y
    refine congrArg (V c main_v39) (funext fun a => Fin.ext ?_)
    match a with
    | ⟨0, _⟩ =>
      show win1_1.index t (0 : Fin 2) * 64 + 1 * (y 0).val = (y 0).val
      omega
    | ⟨1, _⟩ =>
      show win1_1.index t (1 : Fin 2) * 64 + 1 * (y 1).val = (y 1).val
      omega
  have hb : iblk1 V c 2 t = V c main_arg7 := funext fun y => by
    show V c main_arg7 (((cfg1.win 2).blk t).view.emb y) = V c main_arg7 y
    refine congrArg (V c main_arg7) (funext fun a => Fin.ext ?_)
    match a with
    | ⟨0, _⟩ =>
      show win1_2.index t (0 : Fin 1) * 64 + 1 * (y 0).val = (y 0).val
      omega
  rw [hW, hb]
  funext j
  refine tanhDense_idx (M := 200000) (M' := 8000) (K := 64) (N := 64) (V c main_v38) _ _ _ j _ (fun k => ?_) ?_
  · show V c main_v38 (((cfg1.win 0).blk t).view.emb (ix2 (c0 j) k)) = V c main_v38 _
    refine congrArg (V c main_v38) (funext fun a => Fin.ext ?_)
    match a with
    | ⟨0, _⟩ =>
      show win1_0.index t (0 : Fin 2) * 8000 + 1 * (j 0).val = win1_3.index t (0 : Fin 2) * 8000 + 1 * (j 0).val
      omega
    | ⟨1, _⟩ =>
      show win1_0.index t (1 : Fin 2) * 64 + 1 * k.val = k.val
      omega
  · refine Fin.ext ?_
    show (j 1).val = win1_3.index t (1 : Fin 2) * 64 + 1 * (j 1).val
    omega

/-- An index of the output array is in point `t`'s block iff each coordinate is in the block's range on its axis. -/
theorem mem_block (t : Fin cfg1.N) (i : S200000x64.Idx) :
    i ∈ ((cfg1.win 3).blk t).view.set
      ↔ ∀ a : Fin 2, win1_3.index t a * S8000x64.size a ≤ (i a).val ∧ (i a).val < win1_3.index t a * S8000x64.size a + S8000x64.size a := by
  show i ∈ ((View.whole main_v40).slice (win1_3.rect t)).set ↔ _
  rw [View.set_slice_whole, Rect.mem_set_unit]
  exact Iff.rfl

/-- Every row of the output is in the block of the point `row / 8000`. -/
theorem covered (i : S200000x64.Idx) :
    ∃ t : Fin cfg1.N, (cfg1.win 3).flush t = true ∧ i ∈ ((cfg1.win 3).blk t).view.set := by
  have hi0 : (i 0).val < 200000 := (i 0).isLt
  have hi1 : (i 1).val < 64 := (i 1).isLt
  have hN : cfg1.N = 25 := N_1
  have ht : (i 0).val / 8000 < cfg1.N := by rw [hN]; omega
  obtain ⟨e0, e1, e2, e3, e4, e5, e6⟩ := block_index ⟨(i 0).val / 8000, ht⟩
  refine ⟨⟨(i 0).val / 8000, ht⟩, flush1_3 _, ?_⟩
  rw [mem_block]
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    rw [e5]
    show (i 0).val / 8000 * 8000 ≤ (i 0).val ∧ (i 0).val < (i 0).val / 8000 * 8000 + 8000
    omega
  | ⟨1, _⟩ =>
    show win1_3.index ⟨(i 0).val / 8000, ht⟩ (1 : Fin 2) * 64 ≤ (i 1).val
      ∧ (i 1).val < win1_3.index ⟨(i 0).val / 8000, ht⟩ (1 : Fin 2) * 64 + 64
    rw [e6]
    omega

/-- After the call the output array holds the layer of the three input arrays as the call found them. -/
theorem transformed (c : Dev nD) :
    (dat1 V c).arrAt 3 cfg1.N
      = tanhDense (M := 200000) (K := 64) (N := 64) (V c main_v38) (V c main_v39) (row (V c main_arg7)) :=
  (dat1 V c).arrAt_eq_of_cover 3 _ (fun t _ => flushed_eq V c t) covered

end Cert.KernelIdeal.Transform

end
-- ==== Proof.LibRowGather.lean ====
/-
  A gather of whole rows, read at an index, at any extents.

  `x[idx]` of a table `x : [N, C]` at a column of row numbers `idx : [E, 1]` is the array `[E, C]` whose row `e` is row
  `idx e` of the table: the start index is read as a signed integer and clamped into `[0, N − 1]`, the slice is one whole
  row, so entry `(e, q)` is `x (clamp (idx e), q)`.  The clamped row number depends on `idx` and `e` only — not on the
  table, nor on its width — which is what lets a map applied to every row of the table be taken before or after the gather.
-/
import Idealize.ShloMosaic.PureOps.Ideal.Laws
import Idealize.ShloMosaic.Lib.ValueIdx
import Idealize.ShloMosaic.Lib.Pipeline.Value

noncomputable section

namespace Cert.RowGather

open Idealize.ShloMosaic Idealize.ShloMosaic.ValueIdx

variable {α : Type}

/-- The row a gather reads for entry `e`: the start index read signed, clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- A gather of whole rows (the result's second axis the offset axis, the table's first axis collapsed and named by the
    start index, one index per result row) reads, at `(e, q)`, the table at row `rowOf idx e` and column `q`. -/
theorem rowGather_apply {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (rowOf hN idx e) q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![E, 1]⟩ ⟨2, ![E, C]⟩) = D
  unfold Host.gather
  refine congrArg x (funext fun a => Fin.ext ?_)
  show D.start (ix2 e q) idx a + D.batchCoord (ix2 e q) a + D.offCoord (ix2 e q) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _ (fun h => ((GatherDims.mem_sKept _ _).mp h).1 (by rw [hcd]; exact List.mem_singleton.mpr rfl)),
      Nat.add_zero]
    unfold GatherDims.start
    have hmem : (⟨0, by decide⟩ : Fin 2) ∈ D.startIndexMap := by rw [hsm]; exact List.mem_singleton.mpr rfl
    rw [dif_pos hmem]
    have hsi : D.siIdx (ix2 e q) ⟨List.idxOf (⟨0, by decide⟩ : Fin 2) D.startIndexMap, List.idxOf_lt_length_iff.2 hmem⟩
        = ix2 e (0 : Fin 1) := by
      subst hD
      funext b; refine Fin.ext ?_
      match b with
      | ⟨0, _⟩ => rfl
      | ⟨1, _⟩ => rfl
    rw [hsi]
    subst hD
    rfl
  | ⟨1, _⟩ =>
    have hst : D.start (ix2 e q) idx ⟨1, by show 1 < 2; omega⟩ = 0 := by
      unfold GatherDims.start
      rw [dif_neg (by rw [hsm]; exact fun h => Nat.one_ne_zero (congrArg Fin.val (List.mem_singleton.mp h)))]
    rw [hst, Nat.zero_add]
    subst hD
    rfl

end Cert.RowGather

end
-- ==== Proof.LibGatherProject.lean ====
/-
  Projecting rows before or after a gather, on the extended reals, at any extents.

  Two tables `ent : [N, D]` and `rel : [R, D]`, a weight column `w : [C, 1]` with `C = D + D`, a one-entry bias `b`, and for
  every edge `e` a row number into each table (start indices `ih`, `it`, read signed and clamped).  The logit of edge `e` is

      logit e = ∑ k < D, ent (row ih e, k) · w k  +  ∑ k < D, rel (row it e, k) · w (D + k)  +  b.

  One program projects each table onto its half of `w` first and gathers the two resulting scalars per edge; the other
  gathers the two rows per edge, lays them side by side and contracts the `C` columns with `w` at once.  Both are `logit`:
  a gather of rows commutes with a map applied to every row, and a sum over `D + D` indices is the sum over the first
  `D` plus the sum over the last `D` — associativity and commutativity of addition only, so it holds with infinite
  entries too.
-/
import proofs.«127353_j7816840479342_2_alg».proof.Proof.LibDense
import proofs.«127353_j7816840479342_2_alg».proof.Proof.LibHostLayout
import proofs.«127353_j7816840479342_2_alg».proof.Proof.LibRowGather

noncomputable section

open scoped BigOperators

namespace Cert.GatherProject

open Idealize.ShloMosaic Idealize.ShloMosaic.ValueIdx Cert.Dense Cert.RowGather

/-- A sum over `D₁ + D₂` indices is the sum over the first `D₁` plus the sum over the last `D₂`. -/
theorem sum_split {D₁ D₂ C : ℕ} (hC : C = D₁ + D₂) (f : Fin C → EReal) :
    ∑ k : Fin C, f k = (∑ k : Fin D₁, f ⟨k.val, by omega⟩) + ∑ k : Fin D₂, f ⟨D₁ + k.val, by omega⟩ := by
  subst hC
  rw [Fin.sum_univ_add]
  rfl

/-- The logit of every edge, as a column. -/
def logit {N R D C E w₁ w₂ : ℕ} (hN : 0 < N) (hR : 0 < R) (hC : C = D + D) (ent : Mat N D) (rel : Mat R D) (w : Mat C 1)
    (b : Row 1) (ih : IVec ⟨2, ![E, 1]⟩ w₁) (it : IVec ⟨2, ![E, 1]⟩ w₂) : Mat E 1 :=
  fun i => (∑ k : Fin D, ent (ix2 (rowOf hN ih (c0 i)) k) * w (ix2 (⟨k.val, by omega⟩ : Fin C) (0 : Fin 1)))
    + (∑ k : Fin D, rel (ix2 (rowOf hR it (c0 i)) k) * w (ix2 (⟨D + k.val, by omega⟩ : Fin C) (0 : Fin 1)))
    + b (ix1 (0 : Fin 1))

/-- Project, then gather: each table times its half of the weight column, the two scalars of every edge gathered and
    added, the bias added. -/
theorem project_gather {N R D C E w₁ w₂ : ℕ} (hN : 0 < N) (hR : 0 < R) (hC : C = D + D)
    (ent : FVec Ideal ⟨2, ![N, D]⟩ .f32) (rel : FVec Ideal ⟨2, ![R, D]⟩ .f32) (w : FVec Ideal ⟨2, ![C, 1]⟩ .f32)
    (b : FVec Ideal ⟨1, ![1]⟩ .f32) (ih : IVec ⟨2, ![E, 1]⟩ w₁) (it : IVec ⟨2, ![E, 1]⟩ w₂)
    (DA : DotDims ⟨2, ![N, D]⟩ ⟨2, ![D, 1]⟩ ⟨2, ![N, 1]⟩)
    (a1 : DA.lhsContracting = [1]) (a2 : DA.rhsContracting = [0]) (a3 : DA.lhsNonContracting = [0])
    (a4 : DA.rhsNonContracting = [1]) (a5 : DA.lhsBatch = []) (a6 : DA.rhsBatch = [])
    (DB : DotDims ⟨2, ![R, D]⟩ ⟨2, ![D, 1]⟩ ⟨2, ![R, 1]⟩)
    (b1 : DB.lhsContracting = [1]) (b2 : DB.rhsContracting = [0]) (b3 : DB.lhsNonContracting = [0])
    (b4 : DB.rhsNonContracting = [1]) (b5 : DB.lhsBatch = []) (b6 : DB.rhsBatch = [])
    (GA : GatherDims ⟨2, ![N, 1]⟩ ⟨2, ![E, 1]⟩ ⟨2, ![E, 1]⟩)
    (g1 : GA.offsetDims = [1]) (g2 : GA.collapsedSliceDims = [0]) (g3 : GA.operandBatchingDims = [])
    (g4 : GA.startIndicesBatchingDims = []) (g5 : GA.startIndexMap = [0]) (g6 : GA.indexVectorDim = 1)
    (g7 : GA.sliceSizes = ![1, 1])
    (GB : GatherDims ⟨2, ![R, 1]⟩ ⟨2, ![E, 1]⟩ ⟨2, ![E, 1]⟩)
    (k1 : GB.offsetDims = [1]) (k2 : GB.collapsedSliceDims = [0]) (k3 : GB.operandBatchingDims = [])
    (k4 : GB.startIndicesBatchingDims = []) (k5 : GB.startIndexMap = [0]) (k6 : GB.indexVectorDim = 1)
    (k7 : GB.sliceSizes = ![1, 1])
    (s0 : (⟨2, ![C, 1]⟩ : Shape).Slices ![0, 0] ⟨2, ![D, 1]⟩) (s1 : (⟨2, ![C, 1]⟩ : Shape).Slices ![D, 0] ⟨2, ![D, 1]⟩)
    (hb1 : (⟨1, ![1]⟩ : Shape).BroadcastsInDim ⟨2, ![1, 1]⟩ ![1])
    (hb2 : (⟨2, ![1, 1]⟩ : Shape).BroadcastsInDim ⟨2, ![E, 1]⟩ ![0, 1]) :
    addf (addf (Host.gather GA (Host.dotGeneral (F := Ideal) DA none ent (extractStridedSlice ⟨2, ![D, 1]⟩ ![0, 0] w s0)) ih)
          (Host.gather GB (Host.dotGeneral (F := Ideal) DB none rel (extractStridedSlice ⟨2, ![D, 1]⟩ ![D, 0] w s1)) it))
        (broadcastInDim ⟨2, ![E, 1]⟩ ![0, 1] hb2 (broadcastInDim ⟨2, ![1, 1]⟩ ![1] hb1 b))
      = logit hN hR hC ent rel w b ih it := by
  funext i
  obtain ⟨e, u, rfl⟩ : ∃ (e : Fin E) (u : Fin 1), i = ix2 e u := ⟨i 0, i 1, eq_ix2 i⟩
  obtain rfl : u = 0 := Subsingleton.elim _ _
  show Host.gather GA _ ih (ix2 e (0 : Fin 1)) + Host.gather GB _ it (ix2 e (0 : Fin 1))
      + broadcastInDim ⟨2, ![E, 1]⟩ ![0, 1] hb2 (broadcastInDim ⟨2, ![1, 1]⟩ ![1] hb1 b) (ix2 e (0 : Fin 1)) = _
  rw [rowGather_apply hN GA g1 g2 g3 g4 g5 g6 g7, rowGather_apply hR GB k1 k2 k3 k4 k5 k6 k7,
    hostDot_eq_mm DA a1 a2 a3 a4 a5 a6, hostDot_eq_mm DB b1 b2 b3 b4 b5 b6, mm_apply, mm_apply,
    Cert.HostLayout.bcast_vec_mat]
  have e0 : ∀ k : Fin D, extractStridedSlice ⟨2, ![D, 1]⟩ ![0, 0] w s0 (ix2 k (0 : Fin 1))
      = w (ix2 (⟨k.val, by omega⟩ : Fin C) (0 : Fin 1)) := fun k =>
    extractStridedSlice_apply ![0, 0] w s0 _ _ fun a => by
      match a with
      | ⟨0, _⟩ => show k.val = 0 + k.val; omega
      | ⟨1, _⟩ => rfl
  have e1 : ∀ k : Fin D, extractStridedSlice ⟨2, ![D, 1]⟩ ![D, 0] w s1 (ix2 k (0 : Fin 1))
      = w (ix2 (⟨D + k.val, by omega⟩ : Fin C) (0 : Fin 1)) := fun k =>
    extractStridedSlice_apply ![D, 0] w s1 _ _ fun a => by
      match a with
      | ⟨0, _⟩ => rfl
      | ⟨1, _⟩ => rfl
  simp only [e0, e1]
  rfl

/-- Gather, then project: the two rows of every edge gathered and laid side by side, the `C` columns contracted with the
    weight column at once, the bias added. -/
theorem gather_project {N R D C E w₁ w₂ : ℕ} (hN : 0 < N) (hR : 0 < R) (hC : C = D + D)
    (ent : FVec Ideal ⟨2, ![N, D]⟩ .f32) (rel : FVec Ideal ⟨2, ![R, D]⟩ .f32) (w : FVec Ideal ⟨2, ![C, 1]⟩ .f32)
    (b : FVec Ideal ⟨1, ![1]⟩ .f32) (ih : IVec ⟨2, ![E, 1]⟩ w₁) (it : IVec ⟨2, ![E, 1]⟩ w₂)
    (DC : DotDims ⟨2, ![E, C]⟩ ⟨2, ![C, 1]⟩ ⟨2, ![E, 1]⟩)
    (c1' : DC.lhsContracting = [1]) (c2 : DC.rhsContracting = [0]) (c3 : DC.lhsNonContracting = [0])
    (c4 : DC.rhsNonContracting = [1]) (c5 : DC.lhsBatch = []) (c6 : DC.rhsBatch = [])
    (GC : GatherDims ⟨2, ![N, D]⟩ ⟨2, ![E, 1]⟩ ⟨2, ![E, D]⟩)
    (g1 : GC.offsetDims = [1]) (g2 : GC.collapsedSliceDims = [0]) (g3 : GC.operandBatchingDims = [])
    (g4 : GC.startIndicesBatchingDims = []) (g5 : GC.startIndexMap = [0]) (g6 : GC.indexVectorDim = 1)
    (g7 : GC.sliceSizes = ![1, D])
    (GD : GatherDims ⟨2, ![R, D]⟩ ⟨2, ![E, 1]⟩ ⟨2, ![E, D]⟩)
    (k1 : GD.offsetDims = [1]) (k2 : GD.collapsedSliceDims = [0]) (k3 : GD.operandBatchingDims = [])
    (k4 : GD.startIndicesBatchingDims = []) (k5 : GD.startIndexMap = [0]) (k6 : GD.indexVectorDim = 1)
    (k7 : GD.sliceSizes = ![1, D])
    (hcat : Shape.Concatenates [(⟨2, ![E, D]⟩ : Shape), ⟨2, ![E, D]⟩] ⟨2, ![E, C]⟩ (1 : Fin 2))
    (hb1 : (⟨1, ![1]⟩ : Shape).BroadcastsInDim ⟨2, ![1, 1]⟩ ![1])
    (hb2 : (⟨2, ![1, 1]⟩ : Shape).BroadcastsInDim ⟨2, ![E, 1]⟩ ![0, 1]) :
    addf (Host.dotGeneral (F := Ideal) DC none
          (concatenate ⟨2, ![E, C]⟩ (1 : Fin 2) [⟨⟨2, ![E, D]⟩, Host.gather GC ent ih⟩, ⟨⟨2, ![E, D]⟩, Host.gather GD rel it⟩] hcat) w)
        (broadcastInDim ⟨2, ![E, 1]⟩ ![0, 1] hb2 (broadcastInDim ⟨2, ![1, 1]⟩ ![1] hb1 b))
      = logit hN hR hC ent rel w b ih it := by
  funext i
  obtain ⟨e, u, rfl⟩ : ∃ (e : Fin E) (u : Fin 1), i = ix2 e u := ⟨i 0, i 1, eq_ix2 i⟩
  obtain rfl : u = 0 := Subsingleton.elim _ _
  show Host.dotGeneral (F := Ideal) DC none _ w (ix2 e (0 : Fin 1))
      + broadcastInDim ⟨2, ![E, 1]⟩ ![0, 1] hb2 (broadcastInDim ⟨2, ![1, 1]⟩ ![1] hb1 b) (ix2 e (0 : Fin 1)) = _
  rw [hostDot_eq_mm DC c1' c2 c3 c4 c5 c6, mm_apply, Cert.HostLayout.bcast_vec_mat, sum_split hC]
  have eL : ∀ k : Fin D, concatenate ⟨2, ![E, C]⟩ (1 : Fin 2)
        [⟨⟨2, ![E, D]⟩, Host.gather GC ent ih⟩, ⟨⟨2, ![E, D]⟩, Host.gather GD rel it⟩] hcat (ix2 e (⟨k.val, by omega⟩ : Fin C))
      = ent (ix2 (rowOf hN ih e) k) := fun k => by
    exact (concatenate_pair_apply_left (t := ⟨2, ![E, C]⟩) (s₁ := ⟨2, ![E, D]⟩) (s₂ := ⟨2, ![E, D]⟩) (1 : Fin 2)
      (Host.gather GC ent ih) (Host.gather GD rel it) hcat _ rfl (ix2 e k) (fun b => by
        match b with
        | ⟨0, _⟩ => rfl
        | ⟨1, _⟩ => rfl)).trans (rowGather_apply hN GC g1 g2 g3 g4 g5 g6 g7 ent ih e k)
  have eR : ∀ k : Fin D, concatenate ⟨2, ![E, C]⟩ (1 : Fin 2)
        [⟨⟨2, ![E, D]⟩, Host.gather GC ent ih⟩, ⟨⟨2, ![E, D]⟩, Host.gather GD rel it⟩] hcat (ix2 e (⟨D + k.val, by omega⟩ : Fin C))
      = rel (ix2 (rowOf hR it e) k) := fun k => by
    exact (concatenate_pair_apply_right (t := ⟨2, ![E, C]⟩) (s₁ := ⟨2, ![E, D]⟩) (s₂ := ⟨2, ![E, D]⟩) (1 : Fin 2)
      (Host.gather GC ent ih) (Host.gather GD rel it) hcat _ rfl rfl (ix2 e k) (fun b hb => by
        match b with
        | ⟨0, _⟩ => rfl
        | ⟨1, _⟩ => exact absurd rfl hb) (by show k.val + D = D + k.val; omega)).trans
      (rowGather_apply hR GD k1 k2 k3 k4 k5 k6 k7 rel it e k)
  simp only [eL, eR]
  rfl

end Cert.GatherProject

end
-- ==== Proof.KernelValue.lean ====
/-
  The kernel program's result as one function of its arguments.

  Read along the run's fold.  The host operations before the first call leave, in the buffers that call reads, the logit
  column (each table projected onto its half of the weight column, the two scalars of every edge gathered and added, the
  bias added) and the tails (the entity rows gathered at the edges' tail numbers).  The first call leaves the gated
  messages of the two.  The host operations between the calls scatter-add the messages, starting from zeros, at the edges'
  head numbers as given (neither counted from the end nor clamped), and transpose the weight matrix.  The second call leaves the dense layer under tanh
  of the aggregate.  No argument is written on the way, so each argument read anywhere is the launch contents.
-/
import proofs.«127353_j7816840479342_2_alg».proof.Proof.KernelRun
import proofs.«127353_j7816840479342_2_alg».proof.Proof.AttnMessages
import proofs.«127353_j7816840479342_2_alg».proof.Proof.FinalTransform
import proofs.«127353_j7816840479342_2_alg».proof.Proof.LibGatherProject
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Cert.Dense Cert.GatedTanh Cert.GatherProject

variable (m : (ℓ : Loc nD τ sig) → Buf (Elt Ideal) ℓ) (ρ : Dev nD → PrngReg)

/-- Row `0` of the edge list (the heads) as a vector. -/
abbrev headRow (x0 : IVec S2x2000000 32) : IVec S2000000 32 :=
  shapeCast _ (extractStridedSlice S1x2000000 ![0, 0] x0 slices_S2x2000000_S1x2000000_0_0) shapeCasts_S1x2000000_S2000000
/-- Row `1` of the edge list (the tails) as a vector. -/
abbrev tailRow (x0 : IVec S2x2000000 32) : IVec S2000000 32 :=
  shapeCast _ (extractStridedSlice S1x2000000 ![1, 0] x0 slices_S2x2000000_S1x2000000_1_0) shapeCasts_S1x2000000_S2000000
/-- A negative row number counts from the end of a table of `n` rows. -/
abbrev wrap (n : BitVec 32) (v : IVec S2000000 32) : IVec S2000000 32 :=
  select (cmpi .slt v (broadcastInDim S2000000 ![] bcast_S_S2000000 (constantI S_ 32 0#32)))
    (addi v (broadcastInDim S2000000 ![] bcast_S_S2000000 (constantI S_ 32 n))) v
/-- A vector of row numbers as a column of start indices. -/
abbrev col (v : IVec S2000000 32) : IVec S2000000x1 32 := broadcastInDim S2000000x1 ![0] bcast_S2000000_S2000000x1_0 v

/-- The result as a function of the eight arguments. -/
def result (x0 : IVec S2x2000000 32) (x1 : IVec S2000000 32) (x2 : FVec Ideal S200000x64 .f32) (x3 : FVec Ideal S2x64 .f32)
    (x4 : FVec Ideal S128x1 .f32) (x5 : FVec Ideal S1 .f32) (x6 : FVec Ideal S64x64 .f32) (x7 : FVec Ideal S64 .f32) :
    FVec Ideal S200000x64 .f32 :=
  tanhDense (M := 200000) (K := 64) (N := 64)
    (Host.scatterAdd scatter_S200000x64_S2000000x1_S2000000x64_1_0_0_1
      (broadcastInDim S200000x64 ![] bcast_S_S200000x64 (constant (F := Ideal) S_ .f32 0x00000000#32))
      (col (headRow x0))
      (gate (E := 2000000) (D := 64)
        (logit (N := 200000) (R := 2) (D := 64) (C := 128) (E := 2000000) (by decide) (by decide) rfl x2 x3 x4 x5
          (col (wrap 200000#32 (headRow x0))) (col (wrap 2#32 x1)))
        (Host.gather gather_S200000x64_S2000000x1_S2000000x64_1_0_n_n_0_1_164 x2 (col (wrap 200000#32 (tailRow x0))))))
    (transpose S64x64 [1, 0] x6 transposes_S64x64_S64x64_1_0) (row x7)

/-! ## An argument read at a later boundary is the launch contents -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp
theorem W2_arg0 (c : Dev nD) : W2 m ρ c (Proc.devRef .tc main_arg0) = m ((c : Thread nD τ).loc main_arg0) :=
  (W2_of_ne m ρ c main_arg0 (by decide)).trans (W1_arg0 m ρ c)
theorem W1_arg6 (c : Dev nD) : W1 m ρ c (Proc.devRef .tc main_arg6) = m ((c : Thread nD τ).loc main_arg6) := by
  show StableHlo.after hostOps0 (W0 m ρ c) (Proc.devRef .tc main_arg6) = _
  after_results_simp
theorem W2_arg6 (c : Dev nD) : W2 m ρ c (Proc.devRef .tc main_arg6) = m ((c : Thread nD τ).loc main_arg6) :=
  (W2_of_ne m ρ c main_arg6 (by decide)).trans (W1_arg6 m ρ c)
theorem W1_arg7 (c : Dev nD) : W1 m ρ c (Proc.devRef .tc main_arg7) = m ((c : Thread nD τ).loc main_arg7) := by
  show StableHlo.after hostOps0 (W0 m ρ c) (Proc.devRef .tc main_arg7) = _
  after_results_simp
theorem W2_arg7 (c : Dev nD) : W2 m ρ c (Proc.devRef .tc main_arg7) = m ((c : Thread nD τ).loc main_arg7) :=
  (W2_of_ne m ρ c main_arg7 (by decide)).trans (W1_arg7 m ρ c)

/-! ## The first call's inputs -/

/-- The logit column the first call reads. -/
theorem logits (c : Dev nD) : V1 m ρ c main_v23
    = logit (N := 200000) (R := 2) (D := 64) (C := 128) (E := 2000000) (by decide) (by decide) rfl
        (m ((c : Thread nD τ).loc main_arg2)) (m ((c : Thread nD τ).loc main_arg3)) (m ((c : Thread nD τ).loc main_arg4))
        (m ((c : Thread nD τ).loc main_arg5))
        (col (wrap 200000#32 (headRow (m ((c : Thread nD τ).loc main_arg0))))) (col (wrap 2#32 (m ((c : Thread nD τ).loc main_arg1)))) := by
  show StableHlo.after hostOps0 (W0 m ρ c) (Proc.devRef .tc main_v23) = _
  after_results_simp
  exact project_gather (N := 200000) (R := 2) (D := 64) (C := 128) (E := 2000000) (by decide) (by decide) rfl _ _ _ _ _ _
    dot_S200000x64_S64x1_S200000x1_1_0_0_1_n_n rfl rfl rfl rfl rfl rfl
    dot_S2x64_S64x1_S2x1_1_0_0_1_n_n rfl rfl rfl rfl rfl rfl
    gather_S200000x1_S2000000x1_S2000000x1_1_0_n_n_0_1_11 rfl rfl rfl rfl rfl rfl rfl
    gather_S2x1_S2000000x1_S2000000x1_1_0_n_n_0_1_11 rfl rfl rfl rfl rfl rfl rfl
    slices_S128x1_S64x1_0_0 slices_S128x1_S64x1_64_0 bcast_S1_S1x1_1 bcast_S1x1_S2000000x1_0_1

/-- The tails the first call reads. -/
theorem tails (c : Dev nD) : V1 m ρ c main_v32
    = Host.gather gather_S200000x64_S2000000x1_S2000000x64_1_0_n_n_0_1_164 (m ((c : Thread nD τ).loc main_arg2))
        (col (wrap 200000#32 (tailRow (m ((c : Thread nD τ).loc main_arg0))))) := by
  show StableHlo.after hostOps0 (W0 m ρ c) (Proc.devRef .tc main_v32) = _
  after_results_simp
  rfl

/-- The first call's output array after the call. -/
theorem messages (c : Dev nD) : W2 m ρ c (Proc.devRef .tc main_v33)
    = gate (E := 2000000) (D := 64) (V1 m ρ c main_v23) (V1 m ρ c main_v32) :=
  (W2_arr m ρ c 2).trans (Cert.KernelIdeal.Messages.messages (V1 m ρ) c)

/-! ## The second call's inputs -/

theorem aggregate (c : Dev nD) : V3 m ρ c main_v38
    = Host.scatterAdd scatter_S200000x64_S2000000x1_S2000000x64_1_0_0_1
        (broadcastInDim S200000x64 ![] bcast_S_S200000x64 (constant (F := Ideal) S_ .f32 0x00000000#32))
        (col (headRow (m ((c : Thread nD τ).loc main_arg0)))) (W2 m ρ c (Proc.devRef .tc main_v33)) := by
  show StableHlo.after hostOps1 (W2 m ρ c) (Proc.devRef .tc main_v38) = _
  after_results
  rw [W2_arg0]
  rfl

theorem weights (c : Dev nD) : V3 m ρ c main_v39
    = transpose S64x64 [1, 0] (m ((c : Thread nD τ).loc main_arg6)) transposes_S64x64_S64x64_1_0 := by
  show StableHlo.after hostOps1 (W2 m ρ c) (Proc.devRef .tc main_v39) = _
  after_results
  rw [W2_arg6]

theorem bias (c : Dev nD) : V3 m ρ c main_arg7 = m ((c : Thread nD τ).loc main_arg7) := by
  show StableHlo.after hostOps1 (W2 m ρ c) (Proc.devRef .tc main_arg7) = _
  after_results
  exact W2_arg7 m ρ c

/-! ## The result -/

/-- The last boundary's contents of the result buffer are `result` of the launch contents of the arguments. -/
theorem final (c : Dev nD) : W4 m ρ c (Proc.devRef .tc main_v40)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [W4_arr m ρ c 3, Cert.KernelIdeal.Transform.transformed (V3 m ρ) c, aggregate, weights, bias, messages, logits, tails]
  rfl

/-- The run: the result buffer ends at `result` of the arguments, the arguments as launched. -/
theorem run : θ_run defs (onTc (τ := τ) (main (F := Ideal))) ⟨m, fun _ => 0, ρ⟩ (fun r => ∀ c : Dev nD,
      r.2.mem ((c.tc : Thread nD τ).loc main_v40)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final m ρ c), (h c).2⟩) (Cert.KernelIdeal.Run.run_result m ρ)

end Cert.KernelIdeal.Result

end
-- ==== Proof.ReferenceValue.lean ====
/-
  The reference program's result as one function of its arguments.

  The reference gathers, for every edge, the head's and the tail's entity rows and the relation's row; lays head and
  relation side by side and contracts the 128 columns with the weight column, adds the bias: the logit column.  It spells
  the sigmoid out (one over one plus the exponential of the negated logit), broadcasts it along the rows and multiplies
  the tails: the gated messages.  It scatter-adds them, starting from zeros, at the edges' head numbers as given, multiplies by the
  transposed weight matrix, adds the bias vector to every row and applies tanh: the dense layer under tanh.
-/
import proofs.«127353_j7816840479342_2_alg».proof.Proof.Gen.ReferenceIdeal.Run
import proofs.«127353_j7816840479342_2_alg».proof.Proof.Gen.ReferenceIdeal.Read
import proofs.«127353_j7816840479342_2_alg».proof.Proof.LibGatedTanh
import proofs.«127353_j7816840479342_2_alg».proof.Proof.LibGatherProject

set_option maxRecDepth 16384

noncomputable section

namespace Cert.ReferenceIdeal.Result

open Cert.ReferenceIdeal Cert.ReferenceIdeal.Gen Cert.ReferenceIdeal.Read
open Idealize.ShloMosaic Idealize.ShloMosaic.TcCoe Idealize.SL.Sem Idealize.ShloMosaic.StableHlo
open Cert.Dense Cert.GatedTanh Cert.GatherProject

/-- Row `0` of the edge list (the heads) as a vector. -/
abbrev headRow (x0 : IVec S2x2000000 32) : IVec S2000000 32 :=
  shapeCast _ (extractStridedSlice S1x2000000 ![0, 0] x0 slices_S2x2000000_S1x2000000_0_0) shapeCasts_S1x2000000_S2000000
/-- Row `1` of the edge list (the tails) as a vector. -/
abbrev tailRow (x0 : IVec S2x2000000 32) : IVec S2000000 32 :=
  shapeCast _ (extractStridedSlice S1x2000000 ![1, 0] x0 slices_S2x2000000_S1x2000000_1_0) shapeCasts_S1x2000000_S2000000
/-- A negative row number counts from the end of a table of `n` rows. -/
abbrev wrap (n : BitVec 32) (v : IVec S2000000 32) : IVec S2000000 32 :=
  select (cmpi .slt v (broadcastInDim S2000000 ![] bcast_S_S2000000 (constantI S_ 32 0#32)))
    (addi v (broadcastInDim S2000000 ![] bcast_S_S2000000 (constantI S_ 32 n))) v
/-- A vector of row numbers as a column of start indices. -/
abbrev col (v : IVec S2000000 32) : IVec S2000000x1 32 := broadcastInDim S2000000x1 ![0] bcast_S2000000_S2000000x1_0 v

/-- The result as a function of the eight arguments. -/
def result (x0 : IVec S2x2000000 32) (x1 : IVec S2000000 32) (x2 : FVec Ideal S200000x64 .f32) (x3 : FVec Ideal S2x64 .f32)
    (x4 : FVec Ideal S128x1 .f32) (x5 : FVec Ideal S1 .f32) (x6 : FVec Ideal S64x64 .f32) (x7 : FVec Ideal S64 .f32) :
    FVec Ideal S200000x64 .f32 :=
  tanhDense (M := 200000) (K := 64) (N := 64)
    (Host.scatterAdd scatter_S200000x64_S2000000x1_S2000000x64_1_0_0_1
      (broadcastInDim S200000x64 ![] bcast_S_S200000x64 (constant (F := Ideal) S_ .f32 0x00000000#32))
      (col (headRow x0))
      (gate (E := 2000000) (D := 64)
        (logit (N := 200000) (R := 2) (D := 64) (C := 128) (E := 2000000) (by decide) (by decide) rfl x2 x3 x4 x5
          (col (wrap 200000#32 (headRow x0))) (col (wrap 2#32 x1)))
        (Host.gather gather_S200000x64_S2000000x1_S2000000x64_1_0_n_n_0_1_164 x2 (col (wrap 200000#32 (tailRow x0))))))
    (transpose S64x64 [1, 0] x6 transposes_S64x64_S64x64_1_0) (row x7)

variable (x0 : IVec S2x2000000 32) (x1 : IVec S2000000 32) (x2 : FVec Ideal S200000x64 .f32) (x3 : FVec Ideal S2x64 .f32)
  (x4 : FVec Ideal S128x1 .f32) (x5 : FVec Ideal S1 .f32) (x6 : FVec Ideal S64x64 .f32) (x7 : FVec Ideal S64 .f32)

/-- The logit column. -/
theorem logit_stage : val_main_v29 (F := Ideal) x0 x1 x2 x3 x4 x5
    = logit (N := 200000) (R := 2) (D := 64) (C := 128) (E := 2000000) (by decide) (by decide) rfl x2 x3 x4 x5
        (col (wrap 200000#32 (headRow x0))) (col (wrap 2#32 x1)) := by
  show addf (Host.dotGeneral (F := Ideal) dot_S2000000x128_S128x1_S2000000x1_1_0_0_1_n_n none
        (concatenate S2000000x128 1
          [⟨S2000000x64, Host.gather gather_S200000x64_S2000000x1_S2000000x64_1_0_n_n_0_1_164 x2 (col (wrap 200000#32 (headRow x0)))⟩,
           ⟨S2000000x64, Host.gather gather_S2x64_S2000000x1_S2000000x64_1_0_n_n_0_1_164 x3 (col (wrap 2#32 x1))⟩]
          concatenates_S2000000x64_S2000000x64_S2000000x128_d1) x4)
      (broadcastInDim S2000000x1 ![0, 1] bcast_S1x1_S2000000x1_0_1 (broadcastInDim S1x1 ![1] bcast_S1_S1x1_1 x5)) = _
  exact gather_project (N := 200000) (R := 2) (D := 64) (C := 128) (E := 2000000) (by decide) (by decide) rfl _ _ _ _ _ _
    dot_S2000000x128_S128x1_S2000000x1_1_0_0_1_n_n rfl rfl rfl rfl rfl rfl
    gather_S200000x64_S2000000x1_S2000000x64_1_0_n_n_0_1_164 rfl rfl rfl rfl rfl rfl rfl
    gather_S2x64_S2000000x1_S2000000x64_1_0_n_n_0_1_164 rfl rfl rfl rfl rfl rfl rfl
    concatenates_S2000000x64_S2000000x64_S2000000x128_d1 bcast_S1_S1x1_1 bcast_S1x1_S2000000x1_0_1

/-- The gated messages. -/
theorem message_stage : val_main_v37 (F := Ideal) x0 x1 x2 x3 x4 x5
    = gate (E := 2000000) (D := 64) (val_main_v29 (F := Ideal) x0 x1 x2 x3 x4 x5) (val_main_v17 (F := Ideal) x0 x2) := by
  show mulf (broadcastInDim S2000000x64 ![0, 1] bcast_S2000000x1_S2000000x64_0_1
      (Host.divf (broadcastInDim S2000000x1 ![] bcast_S_S2000000x1 (constant (F := Ideal) S_ .f32 0x3F800000#32))
        (addf (broadcastInDim S2000000x1 ![] bcast_S_S2000000x1 (constant (F := Ideal) S_ .f32 0x3F800000#32))
          (Host.exp (Host.negf (val_main_v29 (F := Ideal) x0 x1 x2 x3 x4 x5))))))
      (val_main_v17 (F := Ideal) x0 x2) = _
  exact hostGate (E := 2000000) (D := 64) 0x3F800000#32 (IdealRules.sign_bit.ideal_onePat .f32) _ _ _ _

/-- The whole reference is `result`. -/
theorem value : val_main_v48 (F := Ideal) x0 x1 x2 x3 x4 x5 x6 x7 = result x0 x1 x2 x3 x4 x5 x6 x7 := by
  show Host.tanh (addf (Host.dotGeneral (F := Ideal) dot_S200000x64_S64x64_S200000x64_1_0_0_1_n_n none
        (val_main_v42 (F := Ideal) x0 x1 x2 x3 x4 x5) (transpose S64x64 [1, 0] x6 transposes_S64x64_S64x64_1_0))
      (broadcastInDim S200000x64 ![0, 1] bcast_S1x64_S200000x64_0_1 (broadcastInDim S1x64 ![1] bcast_S64_S1x64_1 x7))) = _
  rw [hostTanhDense (M := 200000) (K := 64) (N := 64) dot_S200000x64_S64x64_S200000x64_1_0_0_1_n_n rfl rfl rfl rfl rfl rfl]
  unfold result
  refine congrArg (fun A => tanhDense (M := 200000) (K := 64) (N := 64) A _ _) ?_
  unfold val_main_v42
  rw [message_stage, logit_stage]
  unfold val_main_v40 val_main_cst_6 val_main_v41 val_main_v39 val_main_v38 val_main_v17 val_main_v16 val_main_v15 val_main_v14
    val_main_v13 val_main_c_2 val_main_v12 val_main_v11 val_main_c_1 val_main_v10 val_main_v9
  rfl

/-- The run: the result buffer ends at `result` of the arguments, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v48)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans ((val_main_v48_eq (F := Ideal) _ _ _ _ _ _ _ _).trans (value _ _ _ _ _ _ _ _)), (h c).2⟩)
    (Cert.ReferenceIdeal.Value.run (F := Ideal) m ρ)

end Cert.ReferenceIdeal.Result

end
-- ==== Proof.lean ====
/-
  A knowledge-graph attention layer: the kernel program and the reference compute one function on the extended reals.

  Every edge `e` carries a head number, a tail number and a relation number.  Where a table is READ at such a number, the
  number is taken signed, a negative one counted from the end of the table, and the outcome clamped into the table: write
  `h`, `t`, `r` for the rows so obtained.  The logit of the edge is

      z e = ∑ k < 64, ent (h, k) · w k + ∑ k < 64, rel (r, k) · w (64 + k) + b,

  and its message is `σ (z e) · ent (t, ·)` with `σ x = 1 / (1 + e^(-x))`.  The messages are then scatter-added, starting
  from zeros, at the edges' head numbers AS GIVEN (not counted from the end, not clamped: a number outside the table is
  treated as the scatter operation treats it), and the result is `tanh (A Wᵀ + c)` of the aggregate `A`.

  The reference gathers the head's and the relation's rows, lays them side by side and contracts the 128 columns with `w`
  at once; the kernel program projects each table onto its half of `w` first and gathers two scalars per edge.  The two
  logits are equal because a gather of rows commutes with a map applied to every row and a sum over `64 + 64` indices is
  the sum of its two halves — associativity and commutativity of addition only, so no finiteness of the inputs is used.
  The reference spells the sigmoid out where the kernel has one operation; that operation is defined as the same
  expression of every extended real.  The kernel's two calls work on blocks of 8000 rows; a row of either layer depends on
  the same row of its input only, and the blocks tile the arrays, so each call leaves the layer of the whole arrays.  The
  kernel's change of float format before its matrix product is the identity on the extended reals.  The scatter-add, the
  transposition and the row-number arithmetic are the same operations in both programs.

  The three frames are the generated ones (the reference's is its generated run with the result dropped); the kernel and
  its idealization differ by no rewrite.
-/
import proofs.«127353_j7816840479342_2_alg».proof.Defs
import proofs.«127353_j7816840479342_2_alg».proof.Proof.Gen.Kernel
import proofs.«127353_j7816840479342_2_alg».proof.Proof.Gen.Kernel.Frame
import proofs.«127353_j7816840479342_2_alg».proof.Proof.Gen.KernelIdeal
import proofs.«127353_j7816840479342_2_alg».proof.Proof.Gen.KernelIdeal.Frame
import proofs.«127353_j7816840479342_2_alg».proof.Proof.Gen.ReferenceIdeal
import proofs.«127353_j7816840479342_2_alg».proof.Proof.Gen.Pre_finite_inputs
import proofs.«127353_j7816840479342_2_alg».proof.Proof.Gen.ReferenceIdeal.Run
import proofs.«127353_j7816840479342_2_alg».proof.Proof.Gen.ReferenceIdeal.Read
import proofs.«127353_j7816840479342_2_alg».proof.Proof.KernelValue
import proofs.«127353_j7816840479342_2_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two programs' results are one function of the arguments: the same operations over the same dimension numbers. -/
theorem result_eq (x0 : IVec ⟨2, ![2, 2000000]⟩ 32) (x1 : IVec ⟨1, ![2000000]⟩ 32) (x2 : FVec Ideal ⟨2, ![200000, 64]⟩ .f32)
    (x3 : FVec Ideal ⟨2, ![2, 64]⟩ .f32) (x4 : FVec Ideal ⟨2, ![128, 1]⟩ .f32) (x5 : FVec Ideal ⟨1, ![1]⟩ .f32)
    (x6 : FVec Ideal ⟨2, ![64, 64]⟩ .f32) (x7 : FVec Ideal ⟨1, ![64]⟩ .f32) :
    Cert.ReferenceIdeal.Result.result x0 x1 x2 x3 x4 x5 x6 x7 = Cert.KernelIdeal.Result.result x0 x1 x2 x3 x4 x5 x6 x7 := rfl

/-- From memories that agree on the arguments both programs end with `result` of the arguments in their result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun r h c => ⟨(h c).1.trans ?_, (h c).2⟩)
    (Cert.ReferenceIdeal.Result.run m' ρ')
  obtain ⟨a0, a1, a2, a3, a4, a5, a6, a7⟩ := hagree c
  rw [a0, a1, a2, a3, a4, a5, a6, a7]
  exact result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
